-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S1600000 32) (main_arg2 : IVec S1600000 32) (main_arg3 : FVec F S1600000 .f32) (main_arg4 : FVec F S128x384 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x384 .f32 := Host.absf main_arg4
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S128x128 : Shape := ⟨2, ![128, 128]⟩
abbrev S5000x128 : Shape := ⟨2, ![5000, 128]⟩
abbrev S1x128 : Shape := ⟨2, ![1, 128]⟩

abbrev nBuf : Space → Nat
  | .hbm => 45
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x384, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S128x128, .f32⟩
  | .hbm, ⟨39, _⟩ => ⟨S128x128, .f32⟩
  | .hbm, ⟨40, _⟩ => ⟨S128x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S128x384_S128x128_0_0 : S128x384.Slices ![0, 0] S128x128
  transposes_S128x128_S128x128_1_0 : S128x128.Transposes [1, 0] S128x128
  slices_S128x384_S128x128_0_128 : S128x384.Slices ![0, 128] S128x128
  slices_S128x384_S128x128_0_256 : S128x384.Slices ![0, 256] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v29) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v31) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v32) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x384 : Shape := ⟨2, ![128, 384]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S100000x384 : Shape := ⟨2, ![100000, 384]⟩
abbrev S384x128 : Shape := ⟨2, ![384, 128]⟩
abbrev S1x128 : Shape := ⟨2, ![1, 128]⟩

abbrev nBuf : Space → Nat
  | .hbm => 44
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x384, .f32⟩
  | .hbm, ⟨5, _⟩ => ⟨S128, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S1600000x128, .f32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1600000x1, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S1600000x128, .f32⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S100000x384, .f32⟩
  | .hbm, ⟨39, _⟩ => ⟨S384x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x128_S100000x384_d1 : Shape.Concatenates [S100000x128, S100000x128, S100000x128] S100000x384 1
  transposes_S128x384_S384x128_1_0 : S128x384.Transposes [1, 0] S384x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x384_S384x128_S100000x128_1_0_0_1_n_n_wf : DotDims.WF S100000x384 S384x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x384_S384x128_S100000x128_1_0_0_1_n_n : DotDims S100000x384 S384x128 S100000x128 where
  lhsContracting := [1]
  rhsContracting := [0]
  lhsNonContracting := [0]
  rhsNonContracting := [1]
  lhsBatch := []
  rhsBatch := []
  wf := dot_S100000x384_S384x128_S100000x128_1_0_0_1_n_n_wf

class Facts : Prop extends Facts₀ where

variable [Facts]
-- ==== Proof.BodyAt.lean ====
/-
  What the kernel body stores, read at one index of its 5000 × 128 block.

  The body loads three 5000 × 128 feature blocks, three 128 × 128 weight matrices and the 128 biases, multiplies
  each feature block by its matrix into a zero accumulator, adds the three products and adds the bias row to every row.
  On the extended reals the changes of float format are the identity and a matrix product into zero is the plain sum of
  products over the contracted axis, so entry `(p, q)` of the stored block is
      Σ_k a₀[p,k]·w₀[k,q] + Σ_k a₁[p,k]·w₁[k,q] + Σ_k a₂[p,k]·w₂[k,q] + b[q].
-/
import proofs.«140996_j6665789243857_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.HopSum.Body

open Cert.KernelIdeal Cert.KernelIdeal.Gen Idealize.ShloMosaic Idealize.ShloMosaic.ValueIdx

/-- Coordinate facts of the product's operand indices at an output index `i` and a contracted index `u`: the left
    operand is read at row `i 0` and column `u`, the right operand at row `u` and column `i 1`. -/
theorem lhs_row (i : S5000x128.Idx) (u : dot_S5000x128_S128x128_S5000x128_1_0_0_1_n_n.contr.Idx) :
    (dot_S5000x128_S128x128_S5000x128_1_0_0_1_n_n.lhsIdx i u 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl

theorem lhs_col (i : S5000x128.Idx) (u : dot_S5000x128_S128x128_S5000x128_1_0_0_1_n_n.contr.Idx) :
    (dot_S5000x128_S128x128_S5000x128_1_0_0_1_n_n.lhsIdx i u 1).val = (u ⟨0, by decide⟩).val :=
  dot_S5000x128_S128x128_S5000x128_1_0_0_1_n_n.lhsIdx_val_of_single rfl i u

theorem rhs_row (i : S5000x128.Idx) (u : dot_S5000x128_S128x128_S5000x128_1_0_0_1_n_n.contr.Idx) :
    (dot_S5000x128_S128x128_S5000x128_1_0_0_1_n_n.rhsIdx i u 0).val = (u ⟨0, by decide⟩).val :=
  dot_S5000x128_S128x128_S5000x128_1_0_0_1_n_n.rhsIdx_val_of_single rfl i u

theorem rhs_col (i : S5000x128.Idx) (u : dot_S5000x128_S128x128_S5000x128_1_0_0_1_n_n.contr.Idx) :
    (dot_S5000x128_S128x128_S5000x128_1_0_0_1_n_n.rhsIdx i u 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The left operand's index of the product at output `(p, q)` and contracted position `k` is `(p, k)`. -/
theorem lhs_at (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  refine funext fun a => Fin.ext ?_
  match a with
  | ⟨0, _⟩ => exact lhs_row _ _
  | ⟨1, _⟩ => exact (lhs_col _ _).trans hk

/-- The right operand's index there is `(k, q)`. -/
theorem rhs_at (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  refine funext fun a => Fin.ext ?_
  match a with
  | ⟨0, _⟩ => exact (rhs_row _ _).trans hk
  | ⟨1, _⟩ => exact rhs_col _ _

/-- A 5000 × 128 by 128 × 128 product into the zero accumulator, at `(p, q)`: the sum over `k` of the products. -/
theorem product_at (a : FVec Ideal S5000x128 .bf16) (w : FVec Ideal S128x128 .bf16) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  rw [lhs_at p q k, rhs_at p q k]

/-- The 128 biases cast to one row and that row repeated down the block: entry `(p, q)` is bias `q`. -/
theorem bias_at (b : FVec Ideal S128 .f32) (hc : S128.ShapeCasts S1x128) (hb : S1x128.Broadcasts S5000x128)
    (p : Fin 5000) (q : Fin 128) :
    broadcastTo S5000x128 (shapeCast S1x128 b hc) hb (ix2 p q) = b (ix1 q) :=
  (broadcastTo_1b_ab_apply (shapeCast S1x128 b hc) hb p q).trans (shapeCast_a_1a_apply b hc 0 q)

/-- THE STORED BLOCK AT AN INDEX: the three sums of products and the bias. -/
theorem stored_at (a0 a1 a2 : Vec Ideal S5000x128 .f32) (w0 w1 w2 : Vec Ideal S128x128 .f32) (b : Vec Ideal S128 .f32)
    (p : Fin 5000) (q : Fin 128) :
    k0_pay1 a0 a1 a2 w0 w1 w2 b (ix2 p q)
      = ((∑ k : Fin 128, a0 (ix2 p k) * w0 (ix2 k q) + ∑ k : Fin 128, a1 (ix2 p k) * w1 (ix2 k q))
          + ∑ k : Fin 128, a2 (ix2 p k) * w2 (ix2 k q))
        + b (ix1 q) := by
  unfold k0_pay1
  simp only [shapeCast_self]
  refine (addf_apply _ _ (ix2 p q)).trans ?_
  refine congrArg₂ (· + ·) ?_ (bias_at b _ _ p q)
  refine (addf_apply _ _ (ix2 p q)).trans ?_
  refine congrArg₂ (· + ·) ?_ (product_at _ _ p q)
  refine (addf_apply _ _ (ix2 p q)).trans ?_
  exact congrArg₂ (· + ·) (product_at _ _ p q) (product_at _ _ p q)

end Cert.HopSum.Body

end
-- ==== Proof.Blocks.lean ====
/-
  From the blocks the grid points write to the whole result array.

  The grid has 20 points; point `t` reads rows `5000·t … 5000·t + 4999` of each of the three feature arrays, the whole
  of each of the three 128 × 128 weight arrays and the whole bias vector, and writes rows `5000·t … 5000·t + 4999` of
  the result. Entry `(p, q)` of the block it writes is the three sums of products and the bias of the payload, with
  the feature rows taken at array row `5000·t + p`: so the block is the restriction to those rows of ONE function of
  the seven arrays, `threeProducts`. The 20 row blocks cover the 100000 rows (row `r` is in block `r / 5000`), hence
  the result array after the run is that function.
-/
import proofs.«140996_j6665789243857_1_alg».proof.Proof.Gen.KernelIdeal.Value
import proofs.«140996_j6665789243857_1_alg».proof.Proof.BodyAt

set_option maxRecDepth 16384

noncomputable section

namespace Cert.HopSum.Blocks

open Cert.KernelIdeal Cert.KernelIdeal.Gen Idealize.ShloMosaic Idealize.ShloMosaic.TcCoe Idealize.SL.Sem
open Idealize.ShloMosaic.ValueIdx
open Idealize.ShloMosaic.Pipeline (Dat)

/-- The result as a function of the seven arrays the windows read: at `(r, o)`, the three sums over `k` of a feature
    array at `(r, k)` times its weight array at `(k, o)`, plus the bias at `o`. -/
def threeProducts (x f1 f2 : S100000x128.Idx → EReal) (w0 w1 w2 : S128x128.Idx → EReal) (b : S128.Idx → EReal) :
    S100000x128.Idx → EReal := fun i =>
  ((∑ k : Fin 128, x (ix2 (⟨(i 0).val, (i 0).isLt⟩ : Fin 100000) k) * w0 (ix2 k (⟨(i 1).val, (i 1).isLt⟩ : Fin 128))
      + ∑ k : Fin 128, f1 (ix2 (⟨(i 0).val, (i 0).isLt⟩ : Fin 100000) k) * w1 (ix2 k (⟨(i 1).val, (i 1).isLt⟩ : Fin 128)))
    + ∑ k : Fin 128, f2 (ix2 (⟨(i 0).val, (i 0).isLt⟩ : Fin 100000) k) * w2 (ix2 k (⟨(i 1).val, (i 1).isLt⟩ : Fin 128)))
  + b (ix1 (⟨(i 1).val, (i 1).isLt⟩ : Fin 128))

theorem zero2 : (![0, 0] : Fin 2 → Nat) = fun _ => 0 := funext fun a => by fin_cases a <;> rfl
theorem zero1 : (![0] : Fin 1 → Nat) = fun _ => 0 := funext fun a => by fin_cases a <;> rfl

/-- The index maps over the grid: the three feature windows move down the rows with the output (row block `t` at
    point `t`, the one column block), the weight and bias windows stay at their one block. -/
theorem index_maps : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

/-- THE BLOCK A POINT WRITES, for any contents of the seven arrays: the body's stored block over the windows' blocks
    at point `t` is block `t` of `threeProducts` of the arrays. -/
theorem block_eq (A0 A1 A2 : S100000x128.Idx → EReal) (A3 A4 A5 : S128x128.Idx → EReal) (A6 : S128.Idx → EReal)
    (t : Fin cfg0.N) :
    (cfg0.win 7).cut (grid0.coords t)
        (out0_7 (F := Ideal) (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4) (((cfg0.win 5).blk t).view.read (Elt Ideal) A5)
          (((cfg0.win 6).blk t).view.read (Elt Ideal) A6))
      = ((cfg0.win 7).blk t).view.read (Elt Ideal) (threeProducts A0 A1 A2 A3 A4 A5 A6) := by
  unfold out0_7
  rw [View.canon_unit_zero zero2]
  simp only [View.ld_unit_zero (S := S5000x128) zero2, View.ld_unit_zero (S := S128x128) zero2,
    View.ld_unit_zero (S := S128) zero1]
  obtain ⟨e00, e01, e10, e11, e20, e21, e30, e31, e40, e41, e50, e51, e60, e70, e71⟩ := index_maps t
  refine funext fun (j : S5000x128.Idx) => ?_
  obtain ⟨p, q, rfl⟩ : ∃ (p : Fin 5000) (q : Fin 128), j = ix2 p q := ⟨j 0, j 1, eq_ix2 j⟩
  show k0_pay1 (F := Ideal) _ _ _ _ _ _ _ (ix2 p q) = threeProducts A0 A1 A2 A3 A4 A5 A6 (((cfg0.win 7).blk t).view.emb (ix2 p q))
  refine (Body.stored_at _ _ _ _ _ _ _ p q).trans ?_
  -- each window's block, read where the payload reads it, is its array read at the output's array index
  have r0 : ∀ k : Fin 128, ((cfg0.win 0).blk t).view.read (Elt Ideal) A0 (ix2 p k) = A0 (ix2 (⟨((((cfg0.win 7).blk t).view.emb (ix2 p q)) 0).val, ((((cfg0.win 7).blk t).view.emb (ix2 p q)) 0).isLt⟩ : Fin 100000) k) := fun k => by
    show A0 (((cfg0.win 0).blk t).view.emb (ix2 p k)) = _
    refine congrArg A0 (funext fun a => Fin.ext ?_)
    match a with
    | ⟨0, _⟩ => show win0_0.index t (0 : Fin 2) * 5000 + 1 * p.val = win0_7.index t (0 : Fin 2) * 5000 + 1 * p.val; omega
    | ⟨1, _⟩ => show win0_0.index t (1 : Fin 2) * 128 + 1 * k.val = k.val; omega
  have r1 : ∀ k : Fin 128, ((cfg0.win 1).blk t).view.read (Elt Ideal) A1 (ix2 p k) = A1 (ix2 (⟨((((cfg0.win 7).blk t).view.emb (ix2 p q)) 0).val, ((((cfg0.win 7).blk t).view.emb (ix2 p q)) 0).isLt⟩ : Fin 100000) k) := fun k => by
    show A1 (((cfg0.win 1).blk t).view.emb (ix2 p k)) = _
    refine congrArg A1 (funext fun a => Fin.ext ?_)
    match a with
    | ⟨0, _⟩ => show win0_1.index t (0 : Fin 2) * 5000 + 1 * p.val = win0_7.index t (0 : Fin 2) * 5000 + 1 * p.val; omega
    | ⟨1, _⟩ => show win0_1.index t (1 : Fin 2) * 128 + 1 * k.val = k.val; omega
  have r2 : ∀ k : Fin 128, ((cfg0.win 2).blk t).view.read (Elt Ideal) A2 (ix2 p k) = A2 (ix2 (⟨((((cfg0.win 7).blk t).view.emb (ix2 p q)) 0).val, ((((cfg0.win 7).blk t).view.emb (ix2 p q)) 0).isLt⟩ : Fin 100000) k) := fun k => by
    show A2 (((cfg0.win 2).blk t).view.emb (ix2 p k)) = _
    refine congrArg A2 (funext fun a => Fin.ext ?_)
    match a with
    | ⟨0, _⟩ => show win0_2.index t (0 : Fin 2) * 5000 + 1 * p.val = win0_7.index t (0 : Fin 2) * 5000 + 1 * p.val; omega
    | ⟨1, _⟩ => show win0_2.index t (1 : Fin 2) * 128 + 1 * k.val = k.val; omega
  have r3 : ∀ k : Fin 128, ((cfg0.win 3).blk t).view.read (Elt Ideal) A3 (ix2 k q) = A3 (ix2 k (⟨((((cfg0.win 7).blk t).view.emb (ix2 p q)) 1).val, ((((cfg0.win 7).blk t).view.emb (ix2 p q)) 1).isLt⟩ : Fin 128)) := fun k => by
    show A3 (((cfg0.win 3).blk t).view.emb (ix2 k q)) = _
    refine congrArg A3 (funext fun a => Fin.ext ?_)
    match a with
    | ⟨0, _⟩ => show win0_3.index t (0 : Fin 2) * 128 + 1 * k.val = k.val; omega
    | ⟨1, _⟩ => show win0_3.index t (1 : Fin 2) * 128 + 1 * q.val = win0_7.index t (1 : Fin 2) * 128 + 1 * q.val; omega
  have r4 : ∀ k : Fin 128, ((cfg0.win 4).blk t).view.read (Elt Ideal) A4 (ix2 k q) = A4 (ix2 k (⟨((((cfg0.win 7).blk t).view.emb (ix2 p q)) 1).val, ((((cfg0.win 7).blk t).view.emb (ix2 p q)) 1).isLt⟩ : Fin 128)) := fun k => by
    show A4 (((cfg0.win 4).blk t).view.emb (ix2 k q)) = _
    refine congrArg A4 (funext fun a => Fin.ext ?_)
    match a with
    | ⟨0, _⟩ => show win0_4.index t (0 : Fin 2) * 128 + 1 * k.val = k.val; omega
    | ⟨1, _⟩ => show win0_4.index t (1 : Fin 2) * 128 + 1 * q.val = win0_7.index t (1 : Fin 2) * 128 + 1 * q.val; omega
  have r5 : ∀ k : Fin 128, ((cfg0.win 5).blk t).view.read (Elt Ideal) A5 (ix2 k q) = A5 (ix2 k (⟨((((cfg0.win 7).blk t).view.emb (ix2 p q)) 1).val, ((((cfg0.win 7).blk t).view.emb (ix2 p q)) 1).isLt⟩ : Fin 128)) := fun k => by
    show A5 (((cfg0.win 5).blk t).view.emb (ix2 k q)) = _
    refine congrArg A5 (funext fun a => Fin.ext ?_)
    match a with
    | ⟨0, _⟩ => show win0_5.index t (0 : Fin 2) * 128 + 1 * k.val = k.val; omega
    | ⟨1, _⟩ => show win0_5.index t (1 : Fin 2) * 128 + 1 * q.val = win0_7.index t (1 : Fin 2) * 128 + 1 * q.val; omega
  have r6 : ((cfg0.win 6).blk t).view.read (Elt Ideal) A6 (ix1 q) = A6 (ix1 (⟨((((cfg0.win 7).blk t).view.emb (ix2 p q)) 1).val, ((((cfg0.win 7).blk t).view.emb (ix2 p q)) 1).isLt⟩ : Fin 128)) := by
    show A6 (((cfg0.win 6).blk t).view.emb (ix1 q)) = _
    refine congrArg A6 (funext fun a => Fin.ext ?_)
    match a with
    | ⟨0, _⟩ => show win0_6.index t (0 : Fin 1) * 128 + 1 * q.val = win0_7.index t (1 : Fin 2) * 128 + 1 * q.val; omega
  unfold threeProducts
  refine congrArg₂ (· + ·) (congrArg₂ (· + ·) (congrArg₂ (· + ·) ?_ ?_) ?_) r6
  · exact Finset.sum_congr rfl fun k _ => congrArg₂ (· * ·) (r0 k) (r3 k)
  · exact Finset.sum_congr rfl fun k _ => congrArg₂ (· * ·) (r1 k) (r4 k)
  · exact Finset.sum_congr rfl fun k _ => congrArg₂ (· * ·) (r2 k) (r5 k)

/-- An index of the result array is in point `t`'s block iff each coordinate is in the block's range on its axis. -/
theorem mem_block (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v32).slice (win0_7.rect t)).set ↔ _
  rw [View.set_slice_whole, Rect.mem_set_unit]
  exact Iff.rfl

/-- THE COVER: every index of the result array is in some point's block, row `r` in the block of point `r / 5000`. -/
theorem covered (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by omega⟩, rfl⟩
  obtain ⟨-, -, -, -, -, -, -, -, -, -, -, -, -, e70, e71⟩ := index_maps t
  refine ⟨t, flush0_7 t, ?_⟩
  rw [mem_block]
  intro a
  match a with
  | ⟨0, _⟩ =>
    show win0_7.index t (0 : Fin 2) * 5000 ≤ (i 0).val ∧ (i 0).val < win0_7.index t (0 : Fin 2) * 5000 + 5000
    omega
  | ⟨1, _⟩ =>
    show win0_7.index t (1 : Fin 2) * 128 ≤ (i 1).val ∧ (i 1).val < win0_7.index t (1 : Fin 2) * 128 + 128
    omega

variable (m : (ℓ : Loc nD τ sig) → Buf (Elt Ideal) ℓ) (ρ : Dev nD → PrngReg)

/-- WHAT POINT `t` WRITES BACK is block `t` of `threeProducts` of the seven arrays as the region finds them. -/
theorem flushed_eq (c : Dev nD) (t : Fin cfg0.N) :
    (dats m 0 c).flushed 7 t = ((cfg0.win 7).blk t).view.read (Elt Ideal)
      (threeProducts (V m c main_arg0) (V m c main_v12) (V m c main_v25) (V m c main_v27) (V m c main_v29)
        (V m c main_v31) (V m c main_arg5)) := by
  rw [Cert.KernelIdeal.Value.flushed7]
  exact block_eq (V m c main_arg0) (V m c main_v12) (V m c main_v25) (V m c main_v27) (V m c main_v29)
    (V m c main_v31) (V m c main_arg5) t

/-- THE RESULT ARRAY after the run: the blocks cover it, so it is `threeProducts` of the seven arrays. -/
theorem final (c : Dev nD) :
    (dats m 0 c).arrAt 7 cfg0.N
      = threeProducts (V m c main_arg0) (V m c main_v12) (V m c main_v25) (V m c main_v27) (V m c main_v29)
          (V m c main_v31) (V m c main_arg5) :=
  (dats m 0 c).arrAt_eq_of_cover 7 _ (fun t _ => flushed_eq m c t) covered

/-- The kernel's run with the result array at that function, the arguments unchanged. -/
theorem run : θ_run defs (onTc (τ := τ) (main (F := Ideal))) ⟨m, fun _ => 0, ρ⟩ fun r => ∀ c : Dev nD,
      r.2.mem ((c : Thread nD τ).loc main_v32)
        = threeProducts (V m c main_arg0) (V m c main_v12) (V m c main_v25) (V m c main_v27) (V m c main_v29)
            (V m c main_v31) (V m c main_arg5)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.HopSum.Blocks

end
-- ==== Proof.Entry.lean ====
/-
  What the kernel's windows find in their arrays when the region is entered.

  Before the region the host computes the one-hop and two-hop neighbourhood sums (a gather of the rows at the edge
  targets, a scaling by the edge values, a scatter-add at the edge sources, twice) and cuts the weight matrix `W`
  (128 × 384) into its three blocks of 128 columns, each transposed. So the three feature windows read `x`, `f1`, `f2`;
  the three weight windows read `w_h[k, o] = W[o, 128·h + k]`; the bias window reads `b`. The neighbourhood sums are
  the very same host operations in the reference, so they are carried as the reference's own stage terms and never
  opened.
-/
import proofs.«140996_j6665789243857_1_alg».proof.Proof.Gen.KernelIdeal.Frame
import proofs.«140996_j6665789243857_1_alg».proof.Proof.Gen.ReferenceIdeal.Read
import Idealize.ShloMosaic.Lib.StableHlo.Run
import Idealize.ShloMosaic.Lib.ValueIdx
import Idealize.ShloMosaic.Lib.ValueLayout

noncomputable section

namespace Cert.HopSum.Entry

open Cert.KernelIdeal Cert.KernelIdeal.Gen Idealize.ShloMosaic Idealize.ShloMosaic.TcCoe
open Idealize.SL.Sem Idealize.ShloMosaic.StableHlo Idealize.ShloMosaic.ValueIdx

variable (m : (ℓ : Loc nD τ sig) → Buf (Elt Ideal) ℓ)

/-- The second feature window's array is the one-hop neighbourhood sum of the arguments. -/
theorem hop1 (c : Dev nD) :
    (V m c main_v12 : S100000x128.Idx → EReal)
      = Cert.ReferenceIdeal.Read.val_main_v12 (F := Ideal) (m ((c : Thread nD τ).loc main_arg0))
          (m ((c : Thread nD τ).loc main_arg1)) (m ((c : Thread nD τ).loc main_arg2)) (m ((c : Thread nD τ).loc main_arg3)) := by
  dsimp only [V, hostOps0]
  after_results_simp <;> rfl

/-- The third feature window's array is the two-hop neighbourhood sum of the arguments. -/
theorem hop2 (c : Dev nD) :
    (V m c main_v25 : S100000x128.Idx → EReal)
      = Cert.ReferenceIdeal.Read.val_main_v25 (F := Ideal) (m ((c : Thread nD τ).loc main_arg0))
          (m ((c : Thread nD τ).loc main_arg1)) (m ((c : Thread nD τ).loc main_arg2)) (m ((c : Thread nD τ).loc main_arg3)) := by
  dsimp only [V, hostOps0]
  after_results_simp <;> rfl

/-- The first weight window's array at `(k, o)` is `W[o, k]`. -/
theorem weight0_at (c : Dev nD) (k o : Fin 128) :
    V m c main_v27 (ix2 k o) = m ((c : Thread nD τ).loc main_arg4) (ix2 o (⟨k.val, by have := k.isLt; omega⟩ : Fin 384)) := by
  have e : (V m c main_v27 : S128x128.Idx → EReal)
      = transpose S128x128 [1, 0] (extractStridedSlice S128x128 ![0, 0] (m ((c : Thread nD τ).loc main_arg4))
          Cert.KernelIdeal.Facts₀.slices_S128x384_S128x128_0_0) Cert.KernelIdeal.Facts₀.transposes_S128x128_S128x128_1_0 := by
    dsimp only [V, hostOps0]
    after_results_simp <;> rfl
  refine (congrFun e (ix2 k o)).trans ?_
  exact (transpose_ix2_apply _ _ k o).trans (slice2_axis1_apply 0 _ _ o k _ (Nat.zero_add _).symm)

/-- The second weight window's array at `(k, o)` is `W[o, 128 + k]`. -/
theorem weight1_at (c : Dev nD) (k o : Fin 128) :
    V m c main_v29 (ix2 k o) = m ((c : Thread nD τ).loc main_arg4) (ix2 o (⟨128 + k.val, by have := k.isLt; omega⟩ : Fin 384)) := by
  have e : (V m c main_v29 : S128x128.Idx → EReal)
      = transpose S128x128 [1, 0] (extractStridedSlice S128x128 ![0, 128] (m ((c : Thread nD τ).loc main_arg4))
          Cert.KernelIdeal.Facts₀.slices_S128x384_S128x128_0_128) Cert.KernelIdeal.Facts₀.transposes_S128x128_S128x128_1_0 := by
    dsimp only [V, hostOps0]
    after_results_simp <;> rfl
  refine (congrFun e (ix2 k o)).trans ?_
  exact (transpose_ix2_apply _ _ k o).trans (slice2_axis1_apply 128 _ _ o k _ rfl)

/-- The third weight window's array at `(k, o)` is `W[o, 256 + k]`. -/
theorem weight2_at (c : Dev nD) (k o : Fin 128) :
    V m c main_v31 (ix2 k o) = m ((c : Thread nD τ).loc main_arg4) (ix2 o (⟨256 + k.val, by have := k.isLt; omega⟩ : Fin 384)) := by
  have e : (V m c main_v31 : S128x128.Idx → EReal)
      = transpose S128x128 [1, 0] (extractStridedSlice S128x128 ![0, 256] (m ((c : Thread nD τ).loc main_arg4))
          Cert.KernelIdeal.Facts₀.slices_S128x384_S128x128_0_256) Cert.KernelIdeal.Facts₀.transposes_S128x128_S128x128_1_0 := by
    dsimp only [V, hostOps0]
    after_results_simp <;> rfl
  refine (congrFun e (ix2 k o)).trans ?_
  exact (transpose_ix2_apply _ _ k o).trans (slice2_axis1_apply 256 _ _ o k _ rfl)

end Cert.HopSum.Entry

end
-- ==== Proof.LibSumSplit.lean ====
/-
  A sum over `Fin n` with `n = a + b` is the sum of its first `a` terms plus the sum of its last `b` terms,
  with the two halves indexed by `Fin a` and `Fin b` through explicit bounds (no cast of the index type is left
  in the statement). It holds in any additive commutative monoid: only associativity and commutativity of
  addition are used, so it applies to the extended reals as it stands, infinities included.
-/
import Mathlib.Algebra.BigOperators.Fin

namespace Cert.LibSumSplit

/-- `∑ k < a + b, g k = ∑ k < a, g k + ∑ k < b, g (a + k)`, the index type of the whole sum being `Fin n` for
    any `n` equal to `a + b`. -/
theorem sum_split {M : Type*} [AddCommMonoid M] (a b n : ℕ) (h : a + b = n) (g : Fin n → M) :
    ∑ k : Fin n, g k
      = ∑ k : Fin a, g ⟨k.val, by have := k.isLt; omega⟩ + ∑ k : Fin b, g ⟨a + k.val, by have := k.isLt; omega⟩ := by
  subst h
  exact Fin.sum_univ_add g

end Cert.LibSumSplit
-- ==== Proof.HopSum.lean ====
/-
  The result of the kernel and of its reference as ONE function of the arrays.

  Both programs compute, for a node `r` and an output feature `o`,
      out[r, o] = Σ_{j < 384} h[r, j] · W[o, j] + b[o],
  where the row `h[r, ·]` is the three feature rows `x[r, ·]`, `f1[r, ·]`, `f2[r, ·]` laid side by side: the node's own
  features and its one-hop and two-hop neighbourhood sums. The reference forms `h` and contracts once over its 384
  columns. The kernel contracts each block of 128 columns of `W` against its own feature array and adds the three
  partial products, then the bias. The two agree because a sum of 384 terms is the sum of its three consecutive runs of
  128 terms: only associativity and commutativity of addition are used, and these hold on the extended reals with the
  infinities included, so no finiteness of the inputs is needed.
-/
import Idealize.ShloMosaic.PureOps.Ideal
import Idealize.ShloMosaic.Lib.ValueIdx
import proofs.«140996_j6665789243857_1_alg».proof.Proof.LibSumSplit

noncomputable section

namespace Cert.HopSum

open Idealize.ShloMosaic Idealize.ShloMosaic.ValueIdx

/-- Entry `(r, o)` of the result, added up the kernel's way: the three products of a feature row with its own block of
    128 columns of row `o` of `W` (columns `k`, `128 + k`, `256 + k`), then the bias at `o`. -/
def entry (x f1 f2 : (⟨2, ![100000, 128]⟩ : Shape).Idx → EReal) (W : (⟨2, ![128, 384]⟩ : Shape).Idx → EReal)
    (b : (⟨1, ![128]⟩ : Shape).Idx → EReal) (r : Fin 100000) (o : Fin 128) : EReal :=
  ((∑ k : Fin 128, x (ix2 r k) * W (ix2 o (⟨k.val, by have := k.isLt; omega⟩ : Fin 384))
      + ∑ k : Fin 128, f1 (ix2 r k) * W (ix2 o (⟨128 + k.val, by have := k.isLt; omega⟩ : Fin 384)))
    + ∑ k : Fin 128, f2 (ix2 r k) * W (ix2 o (⟨256 + k.val, by have := k.isLt; omega⟩ : Fin 384)))
  + b (ix1 o)

/-- The whole result array: `entry` at the two coordinates of the index. -/
def result (x f1 f2 : (⟨2, ![100000, 128]⟩ : Shape).Idx → EReal) (W : (⟨2, ![128, 384]⟩ : Shape).Idx → EReal)
    (b : (⟨1, ![128]⟩ : Shape).Idx → EReal) : (⟨2, ![100000, 128]⟩ : Shape).Idx → EReal :=
  fun i => entry x f1 f2 W b ⟨(i 0).val, (i 0).isLt⟩ ⟨(i 1).val, (i 1).isLt⟩

theorem result_ix2 (x f1 f2 : (⟨2, ![100000, 128]⟩ : Shape).Idx → EReal) (W : (⟨2, ![128, 384]⟩ : Shape).Idx → EReal)
    (b : (⟨1, ![128]⟩ : Shape).Idx → EReal) (r : Fin 100000) (o : Fin 128) :
    result x f1 f2 W b (ix2 r o) = entry x f1 f2 W b r o := rfl

/-- A sum of 384 terms is the sum of its first 128, its next 128 and its last 128 terms, in any additive commutative
    monoid. -/
theorem sum_three {M : Type*} [AddCommMonoid M] (g : Fin 384 → M) :
    ∑ j : Fin 384, g j
      = (∑ k : Fin 128, g ⟨k.val, by have := k.isLt; omega⟩ + ∑ k : Fin 128, g ⟨128 + k.val, by have := k.isLt; omega⟩)
        + ∑ k : Fin 128, g ⟨256 + k.val, by have := k.isLt; omega⟩ := by
  have h1 := Cert.LibSumSplit.sum_split 128 256 384 rfl g
  have h2 := Cert.LibSumSplit.sum_split 128 128 256 rfl
    (fun k : Fin 256 => g ⟨128 + k.val, by have := k.isLt; omega⟩)
  rw [h1, h2, ← add_assoc]
  refine congrArg _ (Finset.sum_congr rfl fun k _ => congrArg g (Fin.ext ?_))
  show 128 + (128 + k.val) = 256 + k.val
  omega

end Cert.HopSum

end
-- ==== Proof.KernelResult.lean ====
/-
  The kernel's result array is `HopSum.result` of the arguments.

  After the run the result array is `threeProducts` of the seven arrays the windows read. Those arrays are the
  arguments `x` and `b` untouched, the one-hop and two-hop neighbourhood sums, and the three transposed column
  blocks of `W`, `w_h[k, o] = W[o, 128·h + k]`. Substituting them turns the three sums of products into the three
  partial products of `HopSum.entry`, term by term.
-/
import proofs.«140996_j6665789243857_1_alg».proof.Proof.Blocks
import proofs.«140996_j6665789243857_1_alg».proof.Proof.Entry
import proofs.«140996_j6665789243857_1_alg».proof.Proof.HopSum

noncomputable section

namespace Cert.HopSum.Kernel

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The seven arrays substituted: `threeProducts` of what the windows read is `HopSum.result` of the arguments. -/
theorem arrays_eq (c : Dev nD) :
    Blocks.threeProducts (V m c main_arg0) (V m c main_v12) (V m c main_v25) (V m c main_v27) (V m c main_v29)
        (V m c main_v31) (V m c main_arg5)
      = Cert.HopSum.result (m ((c : Thread nD τ).loc main_arg0))
          (Cert.ReferenceIdeal.Read.val_main_v12 (F := Ideal) (m ((c : Thread nD τ).loc main_arg0))
            (m ((c : Thread nD τ).loc main_arg1)) (m ((c : Thread nD τ).loc main_arg2)) (m ((c : Thread nD τ).loc main_arg3)))
          (Cert.ReferenceIdeal.Read.val_main_v25 (F := Ideal) (m ((c : Thread nD τ).loc main_arg0))
            (m ((c : Thread nD τ).loc main_arg1)) (m ((c : Thread nD τ).loc main_arg2)) (m ((c : Thread nD τ).loc main_arg3)))
          (m ((c : Thread nD τ).loc main_arg4)) (m ((c : Thread nD τ).loc main_arg5)) := by
  funext i
  unfold Blocks.threeProducts Cert.HopSum.result Cert.HopSum.entry
  refine congrArg₂ (· + ·) (congrArg₂ (· + ·) (congrArg₂ (· + ·) ?_ ?_) ?_) ?_
  · exact Finset.sum_congr rfl fun k _ =>
      congrArg₂ (· * ·) (congrFun (V_main_arg0 m c) _) (Entry.weight0_at m c k _)
  · exact Finset.sum_congr rfl fun k _ =>
      congrArg₂ (· * ·) (congrFun (Entry.hop1 m c) _) (Entry.weight1_at m c k _)
  · exact Finset.sum_congr rfl fun k _ =>
      congrArg₂ (· * ·) (congrFun (Entry.hop2 m c) _) (Entry.weight2_at m c k _)
  · exact congrFun (V_main_arg5 m c) _

/-- The kernel's run with the result array at `HopSum.result` of the arguments, the arguments unchanged. -/
theorem run : θ_run defs (onTc (τ := τ) (main (F := Ideal))) ⟨m, fun _ => 0, ρ⟩ fun r => ∀ c : Dev nD,
      r.2.mem ((c : Thread nD τ).loc main_v32)
        = Cert.HopSum.result (m ((c : Thread nD τ).loc main_arg0))
            (Cert.ReferenceIdeal.Read.val_main_v12 (F := Ideal) (m ((c : Thread nD τ).loc main_arg0))
              (m ((c : Thread nD τ).loc main_arg1)) (m ((c : Thread nD τ).loc main_arg2)) (m ((c : Thread nD τ).loc main_arg3)))
            (Cert.ReferenceIdeal.Read.val_main_v25 (F := Ideal) (m ((c : Thread nD τ).loc main_arg0))
              (m ((c : Thread nD τ).loc main_arg1)) (m ((c : Thread nD τ).loc main_arg2)) (m ((c : Thread nD τ).loc main_arg3)))
            (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (arrays_eq m c), (h c).2⟩) (Blocks.run m ρ)

end Cert.HopSum.Kernel

end
-- ==== Proof.RefResult.lean ====
/-
  The reference's result is `HopSum.result` of the arguments.

  The reference lays the three feature arrays side by side into a 100000 × 384 array, transposes `W` to 384 × 128,
  contracts the 384 columns in one product and adds the bias row. Read at `(r, o)` this is
  `Σ_{j < 384} h[r, j] · W[o, j] + b[o]`. Column `j` of the joined row is `x[r, j]` for `j < 128`, `f1[r, j - 128]` for
  `128 ≤ j < 256` and `f2[r, j - 256]` beyond; splitting the sum into its three runs of 128 terms gives the three
  partial products of `HopSum.entry`.
-/
import proofs.«140996_j6665789243857_1_alg».proof.Proof.Gen.ReferenceIdeal.Read
import proofs.«140996_j6665789243857_1_alg».proof.Proof.HopSum

noncomputable section

namespace Cert.HopSum.Ref

open Cert.ReferenceIdeal Cert.ReferenceIdeal.Gen Cert.ReferenceIdeal.Read Idealize.ShloMosaic Idealize.ShloMosaic.ValueIdx

/-! ## The joined array read at a column of each of its three pieces -/

variable (y0 y1 y2 : S100000x128.Idx → EReal)
  (hc : Shape.Concatenates [S100000x128, S100000x128, S100000x128] S100000x384 (1 : Fin S100000x384.rank))

theorem joined_first (r : Fin 100000) (k : Fin 128) :
    concatenate S100000x384 1 [⟨S100000x128, y0⟩, ⟨S100000x128, y1⟩, ⟨S100000x128, y2⟩] hc
        (ix2 r (⟨k.val, by have := k.isLt; omega⟩ : Fin 384)) = y0 (ix2 r k) :=
  concatenate_apply_piece (1 : Fin S100000x384.rank) [⟨S100000x128, y0⟩, ⟨S100000x128, y1⟩, ⟨S100000x128, y2⟩] hc _ 0 (by show (0 : ℕ) < 3; omega) S100000x128 y0 rfl rfl 0 rfl (ix2 r k)
    (fun b hb => by
      match b with
      | ⟨0, _⟩ => rfl
      | ⟨1, _⟩ => exact absurd (Fin.ext rfl) hb)
    (Nat.zero_add _)

theorem joined_second (r : Fin 100000) (k : Fin 128) :
    concatenate S100000x384 1 [⟨S100000x128, y0⟩, ⟨S100000x128, y1⟩, ⟨S100000x128, y2⟩] hc
        (ix2 r (⟨128 + k.val, by have := k.isLt; omega⟩ : Fin 384)) = y1 (ix2 r k) :=
  concatenate_apply_piece (1 : Fin S100000x384.rank) [⟨S100000x128, y0⟩, ⟨S100000x128, y1⟩, ⟨S100000x128, y2⟩] hc _ 1 (by show (1 : ℕ) < 3; omega) S100000x128 y1 rfl rfl 128 rfl (ix2 r k)
    (fun b hb => by
      match b with
      | ⟨0, _⟩ => rfl
      | ⟨1, _⟩ => exact absurd (Fin.ext rfl) hb)
    rfl

theorem joined_third (r : Fin 100000) (k : Fin 128) :
    concatenate S100000x384 1 [⟨S100000x128, y0⟩, ⟨S100000x128, y1⟩, ⟨S100000x128, y2⟩] hc
        (ix2 r (⟨256 + k.val, by have := k.isLt; omega⟩ : Fin 384)) = y2 (ix2 r k) :=
  concatenate_apply_piece (1 : Fin S100000x384.rank) [⟨S100000x128, y0⟩, ⟨S100000x128, y1⟩, ⟨S100000x128, y2⟩] hc _ 2 (by show (2 : ℕ) < 3; omega) S100000x128 y2 rfl rfl 256 rfl (ix2 r k)
    (fun b hb => by
      match b with
      | ⟨0, _⟩ => rfl
      | ⟨1, _⟩ => exact absurd (Fin.ext rfl) hb)
    rfl

/-! ## The indices the generated reading lemmas compose, as coordinates -/

theorem left_index (r : Fin 100000) (o : Fin 128) (j : Fin 384) : lidx_main_v28 (ix2 r o) j = ix2 r j :=
  funext fun a => Fin.ext (by match a with | ⟨0, _⟩ => rfl | ⟨1, _⟩ => rfl)

theorem right_index (r : Fin 100000) (o : Fin 128) (j : Fin 384) : ridx_main_v28 (ix2 r o) j = ix2 j o :=
  funext fun a => Fin.ext (by match a with | ⟨0, _⟩ => rfl | ⟨1, _⟩ => rfl)

theorem transposed_index (j : Fin 384) (o : Fin 128) : idx_main_v27 (ix2 j o) = ix2 o j :=
  funext fun a => Fin.ext (by match a with | ⟨0, _⟩ => rfl | ⟨1, _⟩ => rfl)

theorem bias_index (r : Fin 100000) (o : Fin 128) : idx_main_v29 (idx_main_v30 (ix2 r o)) = ix1 o :=
  funext fun a => Fin.ext (by match a with | ⟨0, _⟩ => rfl)

/-! ## The reference's last stage -/

/-- THE REFERENCE IS `HopSum.result`: of `x`, of its own one-hop and two-hop stage terms, of `W` and of `b`. -/
theorem stage_eq (x0 : (⟨S100000x128, .f32⟩ : BufTy).Contents (Elt Ideal)) (x1 x2 : (⟨S1600000, .i32⟩ : BufTy).Contents (Elt Ideal))
    (x3 : (⟨S1600000, .f32⟩ : BufTy).Contents (Elt Ideal)) (x4 : (⟨S128x384, .f32⟩ : BufTy).Contents (Elt Ideal))
    (x5 : (⟨S128, .f32⟩ : BufTy).Contents (Elt Ideal)) :
    val_main_v31 (F := Ideal) x0 x1 x2 x3 x4 x5
      = Cert.HopSum.result x0 (val_main_v12 (F := Ideal) x0 x1 x2 x3) (val_main_v25 (F := Ideal) x0 x1 x2 x3) x4 x5 := by
  funext i
  obtain ⟨r, o, rfl⟩ : ∃ (r : Fin 100000) (o : Fin 128), i = ix2 r o := ⟨i 0, i 1, eq_ix2 i⟩
  rw [Cert.HopSum.result_ix2, val_main_v31_apply, val_main_v28_apply, val_main_v30_apply, val_main_v29_apply]
  simp only [left_index, right_index, val_main_v27_apply, transposed_index, bias_index]
  show (∑ j : Fin 384, val_main_v26 (F := Ideal) x0 x1 x2 x3 (ix2 r j) * x4 (ix2 o j)) + x5 (ix1 o) = _
  rw [Cert.HopSum.sum_three]
  unfold Cert.HopSum.entry val_main_v26
  refine congrArg₂ (· + ·) (congrArg₂ (· + ·) (congrArg₂ (· + ·) ?_ ?_) ?_) rfl
  · exact Finset.sum_congr rfl fun k _ => congrArg₂ (· * ·) (joined_first _ _ _ _ r k) rfl
  · exact Finset.sum_congr rfl fun k _ => congrArg₂ (· * ·) (joined_second _ _ _ _ r k) rfl
  · exact Finset.sum_congr rfl fun k _ => congrArg₂ (· * ·) (joined_third _ _ _ _ r k) rfl

end Cert.HopSum.Ref

end
-- ==== Proof.lean ====
/-
  The certificate of a graph layer: the features of every node, their one-hop and their two-hop neighbourhood sums
  (a gather at the edge targets, a scaling by the edge values, a scatter-add at the edge sources, once and twice),
  joined and sent through one linear map with a bias.

  The reference joins the three 100000 × 128 arrays into one 100000 × 384 array and multiplies it by the transposed
  128 × 384 weight matrix in one product. The kernel keeps the three arrays apart: it cuts the weight matrix into its
  three blocks of 128 columns, and on each block of 5000 rows multiplies each feature array by its own block of the
  weights, adds the three products and the bias. The neighbourhood sums are the same host operations in both programs.
  On the extended reals the two results are one function of the arguments, `HopSum.result`, because a sum of 384
  products is the sum of its three runs of 128 products — associativity and commutativity of addition only, so the
  precondition is never opened.

  The three frames: the kernel's two are generated whole; the reference has no kernel, and its frame is its generated
  run with the result dropped. The idealization rewrote no operation, so `preserves` is `True`.
-/
import proofs.«140996_j6665789243857_1_alg».proof.Defs
import proofs.«140996_j6665789243857_1_alg».proof.Proof.Gen.Kernel
import proofs.«140996_j6665789243857_1_alg».proof.Proof.Gen.Kernel.Skeleton
import proofs.«140996_j6665789243857_1_alg».proof.Proof.Gen.Kernel.Launch
import proofs.«140996_j6665789243857_1_alg».proof.Proof.Gen.Kernel.Points
import proofs.«140996_j6665789243857_1_alg».proof.Proof.Gen.Kernel.Frame
import proofs.«140996_j6665789243857_1_alg».proof.Proof.Gen.KernelIdeal
import proofs.«140996_j6665789243857_1_alg».proof.Proof.Gen.KernelIdeal.Skeleton
import proofs.«140996_j6665789243857_1_alg».proof.Proof.Gen.KernelIdeal.Launch
import proofs.«140996_j6665789243857_1_alg».proof.Proof.Gen.KernelIdeal.Points
import proofs.«140996_j6665789243857_1_alg».proof.Proof.Gen.KernelIdeal.Frame
import proofs.«140996_j6665789243857_1_alg».proof.Proof.Gen.ReferenceIdeal
import proofs.«140996_j6665789243857_1_alg».proof.Proof.Gen.Pre_finite_inputs
import proofs.«140996_j6665789243857_1_alg».proof.Proof.Gen.KernelIdeal.Value
import proofs.«140996_j6665789243857_1_alg».proof.Proof.Gen.ReferenceIdeal.Run
import proofs.«140996_j6665789243857_1_alg».proof.Proof.Gen.ReferenceIdeal.Read
import proofs.«140996_j6665789243857_1_alg».proof.Proof.KernelResult
import proofs.«140996_j6665789243857_1_alg».proof.Proof.RefResult
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs, run from memories that agree on the arguments, end with the result array at
    `HopSum.result` of the arguments: the kernel by its blocks (`HopSum.Kernel.run`), the reference by its stages read
    at an index (`HopSum.Ref.stage_eq`). -/
theorem algebraic : Cert.algebraic_KernelIdeal_ReferenceIdeal := by
  intro m ρ m' ρ' _ hagree
  refine ⟨_, Cert.HopSum.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v31_eq, Cert.HopSum.Ref.stage_eq, (hagree c).1, (hagree c).2.1,
    (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
